-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S_ : Shape := ⟨0, ![]⟩

class Facts : Prop where
  bcast_S_S50001x128 : S_.BroadcastsInDim S50001x128 (![] : Fin 0 → Fin S50001x128.rank)
  reducesTo_S50001x128_S_d0_1 : S50001x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg6 : FVec F S128x128 .f32) (main_arg7 : FVec F S128x128 .f32) (main_arg8 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : IVec S50000x2 32) (main_arg1 : IVec S2x800000 32) (main_arg2 : FVec F S50001x128 .f32) (main_arg3 : FVec F S50001x128 .f32) (main_arg4 : FVec F S128x128 .f32) (main_arg5 : FVec F S128x128 .f32) (main_arg6 : FVec F S128x128 .f32) (main_arg7 : FVec F S128x128 .f32) (main_arg8 : FVec F S64x128 .f32) : IVec S_ 1 :=
  let main_v0 : FVec F S50001x128 .f32 := Host.absf main_arg2
  let main_cst : FVec F S_ .f32 := constant S_ .f32 0x7F800000#32
  let main_v1 : FVec F S50001x128 .f32 := broadcastInDim S50001x128 ![] bcast_S_S50001x128 main_cst
  let main_v2 : IVec S50001x128 1 := cmpf .olt main_v0 main_v1
  let main_c : IVec S_ 1 := constantI S_ 1 1#1
  let main_v3 : IVec S_ 1 := (fun x v => Host.reduce IntOp.andi x v reducesTo_S50001x128_S_d0_1 h_S_) main_v2 main_c
  let main_v4 : FVec F S50001x128 .f32 := Host.absf main_arg3
  let main_cst_0 : FVec F S_ .f32 := constant S_ .f32 0x7F800000#32
  let main_v5 : FVec F S50001x128 .f32 := broadcastInDim S50001x128 ![] bcast_S_S50001x128 main_cst_0
  let main_v6 : IVec S50001x128 1 := cmpf .olt main_v4 main_v5
  let main_c_1 : IVec S_ 1 := constantI S_ 1 1#1
  let main_v7 : IVec S_ 1 := (fun x v => Host.reduce IntOp.andi x v reducesTo_S50001x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S1x800000 : Shape := ⟨2, ![1, 800000]⟩
abbrev S800000 : Shape := ⟨1, ![800000]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S800000x1 : Shape := ⟨2, ![800000, 1]⟩
abbrev S128x64 : Shape := ⟨2, ![128, 64]⟩
abbrev S800000x128 : Shape := ⟨2, ![800000, 128]⟩
abbrev S2000x128 : Shape := ⟨2, ![2000, 128]⟩
abbrev S2000x1 : Shape := ⟨2, ![2000, 1]⟩
abbrev S50000x64 : Shape := ⟨2, ![50000, 64]⟩
abbrev S2000x64 : Shape := ⟨2, ![2000, 64]⟩

abbrev nBuf : Space → Nat
  | .hbm => 85
  | .vmem => 21
  | .smem => 0
  | _ => 0

abbrev bufTy : (tb : Table) → Fin (tcTables nBuf tb) → BufTy
  | .hbm, ⟨0, _⟩ => ⟨S50000x2, .i32⟩
  | .hbm, ⟨1, _⟩ => ⟨S2x800000, .i32⟩
  | .hbm, ⟨2, _⟩ => ⟨S50001x128, .f32⟩
  | .hbm, ⟨3, _⟩ => ⟨S50001x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S64x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x1, .i32⟩
  | .hbm, ⟨14, _⟩ => ⟨S50000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x128, .f32⟩
  | .hbm, ⟨24, _⟩ => ⟨S50000x1, .i32⟩
  | .hbm, ⟨25, _⟩ => ⟨S50000, .i32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .bf16⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .bf16⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .bf16⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .bf16⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x64, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S128x128, .f32⟩
  | .local _ .vmem, ⟨18, _⟩ => ⟨S128x64, .f32⟩
  | .local _ .vmem, ⟨19, _⟩ => ⟨S2000x64, .f32⟩
  | .local _ .vmem, ⟨20, _⟩ => ⟨S2000x64, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  bcast_S_S50000x128 : S_.BroadcastsInDim S50000x128 (![] : Fin 0 → Fin S50000x128.rank)
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  transposes_S64x128_S128x64_1_0 : S64x128.Transposes [1, 0] S128x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  gather_S50001x128_S50000x1_S50000x128_1_0_n_n_0_1_1128_wf : GatherDims.WF S50001x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def gather_S50001x128_S50000x1_S50000x128_1_0_n_n_0_1_1128 : GatherDims S50001x128 S50000x1 S50000x128 where
  offsetDims := [1]
  collapsedSliceDims := [0]
  operandBatchingDims := []
  startIndicesBatchingDims := []
  startIndexMap := [0]
  indexVectorDim := 1
  sliceSizes := ![1, 128]
  wf := gather_S50001x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S128x64 : Shape := ⟨2, ![128, 64]⟩
abbrev S50000x64 : Shape := ⟨2, ![50000, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x2, .i32⟩
  | .hbm, ⟨1, _⟩ => ⟨S2x800000, .i32⟩
  | .hbm, ⟨2, _⟩ => ⟨S50001x128, .f32⟩
  | .hbm, ⟨3, _⟩ => ⟨S50001x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S64x128, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S128x128, .f32⟩
  | .hbm, ⟨95, _⟩ => ⟨S50000x128, .f32⟩
  | .hbm, ⟨96, _⟩ => ⟨S128x128, .f32⟩
  | .hbm, ⟨97, _⟩ => ⟨S50000x128, .f32⟩
  | .hbm, ⟨98, _⟩ => ⟨S50000x128, .f32⟩
  | .hbm, ⟨99, _⟩ => ⟨S128x64, .f32⟩
  | .hbm, ⟨100, _⟩ => ⟨S50000x64, .f32⟩
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  gather_S50001x128_S50000x1_S50000x128_1_0_n_n_0_1_1128_wf : GatherDims.WF S50001x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50001x128_S50000x1_S50000x128_1_0_n_n_0_1_1128 : GatherDims S50001x128 S50000x1 S50000x128 where
  offsetDims := [1]
  collapsedSliceDims := [0]
  operandBatchingDims := []
  startIndicesBatchingDims := []
  startIndexMap := [0]
  indexVectorDim := 1
  sliceSizes := ![1, 128]
  wf := gather_S50001x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageRun.lean ====
/- The idealized kernel's run with its result array named.

   @main is six segments: three stretches of host operations, the first pallas_call, one more stretch,
   the second pallas_call. Every weakly fair execution terminates without a fault; at the end the result
   buffer holds what the last boundary's contents say it holds (the fold of the segments from the launch
   memory), and every argument array is as launched. -/
import proofs.«139466_j30434138259919_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The result buffer is the second pallas_call's output array: what its write-backs leave. -/
theorem result_eq (c : Dev nD) :
    W6 m ρ c (Proc.devRef .tc main_v60) = (dat1 (V5 m ρ) c).arrAt 6 cfg1.N :=
  W6_arr m ρ c 6

end Cert.KernelIdeal.SageRun

end
-- ==== Proof.SageSpec.lean ====
/- The mathematics both programs compute, as functions of index-valued arrays over the extended reals.

   One GraphSAGE layer with mean aggregation, at row `r` and column `q`:
     Σ_k h[r,k]·ws[k,q]  +  Σ_k (agg[r,k] / deg[r,0])·wn[k,q]
   (`ws`, `wn` are the weights already transposed, `deg` is a column), and the classifier
     Σ_k h[r,k]·wc[k,q].
   The number of rows `n` is a parameter: the same formula describes one block of 2000 rows and the
   whole array of 50000 rows, because a row of the result depends on the same row of `h`, `agg`, `deg` only. -/
import Idealize.ShloMosaic.PureOps.Ideal
import Idealize.ShloMosaic.Lib.ValueIdx

noncomputable section

namespace Cert.Sage

open Idealize.ShloMosaic Idealize.ShloMosaic.ValueIdx

/-- One layer's entry at row `r`, column `q`. -/
def layerAt {n : Nat} (h agg : (⟨2, ![n, 128]⟩ : Shape).Idx → EReal) (deg : (⟨2, ![n, 1]⟩ : Shape).Idx → EReal)
    (ws wn : (⟨2, ![128, 128]⟩ : Shape).Idx → EReal) (r : Fin n) (q : Fin 128) : EReal :=
  (∑ k : Fin 128, h (ix2 r k) * ws (ix2 k q))
    + ∑ k : Fin 128, Ideal.div (agg (ix2 r k)) (deg (ix2 r (0 : Fin 1))) * wn (ix2 k q)

/-- One layer as an array. -/
def layer {n : Nat} (h agg : (⟨2, ![n, 128]⟩ : Shape).Idx → EReal) (deg : (⟨2, ![n, 1]⟩ : Shape).Idx → EReal)
    (ws wn : (⟨2, ![128, 128]⟩ : Shape).Idx → EReal) : (⟨2, ![n, 128]⟩ : Shape).Idx → EReal :=
  fun i => layerAt h agg deg ws wn (i 0) (i 1)

/-- The classifier's entry at row `r`, column `q`. -/
def clsAt {n : Nat} (h : (⟨2, ![n, 128]⟩ : Shape).Idx → EReal) (wc : (⟨2, ![128, 64]⟩ : Shape).Idx → EReal)
    (r : Fin n) (q : Fin 64) : EReal :=
  ∑ k : Fin 128, h (ix2 r k) * wc (ix2 k q)

/-- The classifier as an array. -/
def cls {n : Nat} (h : (⟨2, ![n, 128]⟩ : Shape).Idx → EReal) (wc : (⟨2, ![128, 64]⟩ : Shape).Idx → EReal) :
    (⟨2, ![n, 64]⟩ : Shape).Idx → EReal :=
  fun i => clsAt h wc (i 0) (i 1)

theorem layer_ix2 {n : Nat} (h agg : (⟨2, ![n, 128]⟩ : Shape).Idx → EReal) (deg : (⟨2, ![n, 1]⟩ : Shape).Idx → EReal)
    (ws wn : (⟨2, ![128, 128]⟩ : Shape).Idx → EReal) (r : Fin n) (q : Fin 128) :
    layer h agg deg ws wn (ix2 r q) = layerAt h agg deg ws wn r q := rfl

theorem cls_ix2 {n : Nat} (h : (⟨2, ![n, 128]⟩ : Shape).Idx → EReal) (wc : (⟨2, ![128, 64]⟩ : Shape).Idx → EReal)
    (r : Fin n) (q : Fin 64) : cls h wc (ix2 r q) = clsAt h wc r q := rfl

/-- A row of a layer depends on the same row of `h`, `agg`, `deg` only: if row `r` of the small arrays is row `r'` of the
    large ones and the weights agree, the two entries are equal. -/
theorem layerAt_rows {n n' : Nat} {x0 x1 : (⟨2, ![n, 128]⟩ : Shape).Idx → EReal} {x2 : (⟨2, ![n, 1]⟩ : Shape).Idx → EReal}
    {H A : (⟨2, ![n', 128]⟩ : Shape).Idx → EReal} {D : (⟨2, ![n', 1]⟩ : Shape).Idx → EReal}
    {x3 x4 ws wn : (⟨2, ![128, 128]⟩ : Shape).Idx → EReal} (r : Fin n) (r' : Fin n')
    (h0 : ∀ k, x0 (ix2 r k) = H (ix2 r' k)) (h1 : ∀ k, x1 (ix2 r k) = A (ix2 r' k))
    (h2 : x2 (ix2 r (0 : Fin 1)) = D (ix2 r' (0 : Fin 1)))
    (h3 : ∀ k q, x3 (ix2 k q) = ws (ix2 k q)) (h4 : ∀ k q, x4 (ix2 k q) = wn (ix2 k q)) (q : Fin 128) :
    layerAt x0 x1 x2 x3 x4 r q = layerAt H A D ws wn r' q := by
  unfold layerAt
  simp only [h0, h1, h2, h3, h4]

/-- The same for the classifier. -/
theorem clsAt_rows {n n' : Nat} {y : (⟨2, ![n, 128]⟩ : Shape).Idx → EReal} {Y : (⟨2, ![n', 128]⟩ : Shape).Idx → EReal}
    {x5 wc : (⟨2, ![128, 64]⟩ : Shape).Idx → EReal} (r : Fin n) (r' : Fin n')
    (h0 : ∀ k, y (ix2 r k) = Y (ix2 r' k)) (h5 : ∀ k q, x5 (ix2 k q) = wc (ix2 k q)) (q : Fin 64) :
    clsAt y x5 r q = clsAt Y wc r' q := by
  unfold clsAt
  simp only [h0, h5]

end Cert.Sage

end
-- ==== Proof.SageBody.lean ====
/- The two kernel bodies at one entry, over the extended reals.

   A block is 2000 rows. The first body computes, for its 2000 rows, one layer
     Σ_k h[r,k]·ws[k,q] + Σ_k (agg[r,k]/deg[r,0])·wn[k,q];
   the second computes the same layer and multiplies it by the classifier weights.
   The matrix products have a zero accumulator, so each is the plain sum over the 128 contracted
   positions; the changes of float format are the identity on extended reals; the degree column is
   broadcast along the row. -/
import proofs.«139466_j30434138259919_2_alg».proof.Proof.Gen.KernelIdeal.Skeleton
import proofs.«139466_j30434138259919_2_alg».proof.Proof.SageSpec
import Idealize.ShloMosaic.Lib.Pipeline.Value
import Idealize.ShloMosaic.Lib.ValueIdx
import Idealize.ShloMosaic.PureOps.Ideal.Laws

noncomputable section

namespace Cert.KernelIdeal.SageBody

open Cert.KernelIdeal Cert.KernelIdeal.Gen Idealize.ShloMosaic Idealize.ShloMosaic.ValueIdx

/-- The 2000×128 by 128×128 product's dimension record. -/
abbrev D1 := dot_S2000x128_S128x128_S2000x128_1_0_0_1_n_n
/-- The 2000×128 by 128×64 product's dimension record. -/
abbrev D2 := dot_S2000x128_S128x64_S2000x64_1_0_0_1_n_n

/-! ## The operand positions of the 128×128 product: (r, k) on the left, (k, q) on the right -/

theorem D1_lhs0 (i : S2000x128.Idx) (q : D1.contr.Idx) : (D1.lhsIdx i q 0).val = (i 0).val := by
  unfold DotDims.lhsIdx
  rw [dif_neg (show ¬(0 : Fin S2000x128.rank) ∈ D1.lhsBatch by decide), dif_pos (show (0 : Fin S2000x128.rank) ∈ D1.lhsNonContracting by decide)]
  rfl
theorem D1_lhs1 (i : S2000x128.Idx) (q : D1.contr.Idx) : (D1.lhsIdx i q 1).val = (q ⟨0, by decide⟩).val :=
  D1.lhsIdx_val_of_single rfl i q
theorem D1_rhs0 (i : S2000x128.Idx) (q : D1.contr.Idx) : (D1.rhsIdx i q 0).val = (q ⟨0, by decide⟩).val :=
  D1.rhsIdx_val_of_single rfl i q
theorem D1_rhs1 (i : S2000x128.Idx) (q : D1.contr.Idx) : (D1.rhsIdx i q 1).val = (i 1).val := by
  unfold DotDims.rhsIdx
  rw [dif_neg (show ¬(1 : Fin S128x128.rank) ∈ D1.rhsBatch by decide), dif_pos (show (1 : Fin S128x128.rank) ∈ D1.rhsNonContracting by decide)]
  rfl

/-- The 128×128 product into a zero accumulator, at row `r` and column `q`. -/
theorem matmul1_apply {φ₁ φ₂ : FTy} (a : FVec Ideal S2000x128 φ₁) (b : FVec Ideal S128x128 φ₂) (r : Fin 2000) (q : Fin 128) :
    matmul D1 none a b (constant (F := Ideal) S2000x128 .f32 0x00000000#32) (ix2 r q) = ∑ k : Fin 128, a (ix2 r k) * b (ix2 k q) := by
  refine (Ideal.matmul_constant_zero_apply D1 none a b (ix2 r q)).trans ?_
  rw [← Equiv.sum_comp (contrEquiv1 D1 128 rfl rfl).symm]
  refine Finset.sum_congr rfl fun k _ => ?_
  have hk := contrEquiv1_symm_val D1 128 rfl rfl k
  have el : D1.lhsIdx (ix2 r q) ((contrEquiv1 D1 128 rfl rfl).symm k) = ix2 r k := funext fun a => Fin.ext (by
    match a with
    | ⟨0, _⟩ => exact D1_lhs0 _ _
    | ⟨1, _⟩ => exact (D1_lhs1 _ _).trans hk)
  have er : D1.rhsIdx (ix2 r q) ((contrEquiv1 D1 128 rfl rfl).symm k) = ix2 k q := funext fun a => Fin.ext (by
    match a with
    | ⟨0, _⟩ => exact (D1_rhs0 _ _).trans hk
    | ⟨1, _⟩ => exact D1_rhs1 _ _)
  rw [el, er]

/-! ## The same for the 128×64 product -/

theorem D2_lhs0 (i : S2000x64.Idx) (q : D2.contr.Idx) : (D2.lhsIdx i q 0).val = (i 0).val := by
  unfold DotDims.lhsIdx
  rw [dif_neg (show ¬(0 : Fin S2000x128.rank) ∈ D2.lhsBatch by decide), dif_pos (show (0 : Fin S2000x128.rank) ∈ D2.lhsNonContracting by decide)]
  rfl
theorem D2_lhs1 (i : S2000x64.Idx) (q : D2.contr.Idx) : (D2.lhsIdx i q 1).val = (q ⟨0, by decide⟩).val :=
  D2.lhsIdx_val_of_single rfl i q
theorem D2_rhs0 (i : S2000x64.Idx) (q : D2.contr.Idx) : (D2.rhsIdx i q 0).val = (q ⟨0, by decide⟩).val :=
  D2.rhsIdx_val_of_single rfl i q
theorem D2_rhs1 (i : S2000x64.Idx) (q : D2.contr.Idx) : (D2.rhsIdx i q 1).val = (i 1).val := by
  unfold DotDims.rhsIdx
  rw [dif_neg (show ¬(1 : Fin S128x64.rank) ∈ D2.rhsBatch by decide), dif_pos (show (1 : Fin S128x64.rank) ∈ D2.rhsNonContracting by decide)]
  rfl

/-- The 128×64 product into a zero accumulator, at row `r` and column `q`. -/
theorem matmul2_apply {φ₁ φ₂ : FTy} (a : FVec Ideal S2000x128 φ₁) (b : FVec Ideal S128x64 φ₂) (r : Fin 2000) (q : Fin 64) :
    matmul D2 none a b (constant (F := Ideal) S2000x64 .f32 0x00000000#32) (ix2 r q) = ∑ k : Fin 128, a (ix2 r k) * b (ix2 k q) := by
  refine (Ideal.matmul_constant_zero_apply D2 none a b (ix2 r q)).trans ?_
  rw [← Equiv.sum_comp (contrEquiv1 D2 128 rfl rfl).symm]
  refine Finset.sum_congr rfl fun k _ => ?_
  have hk := contrEquiv1_symm_val D2 128 rfl rfl k
  have el : D2.lhsIdx (ix2 r q) ((contrEquiv1 D2 128 rfl rfl).symm k) = ix2 r k := funext fun a => Fin.ext (by
    match a with
    | ⟨0, _⟩ => exact D2_lhs0 _ _
    | ⟨1, _⟩ => exact (D2_lhs1 _ _).trans hk)
  have er : D2.rhsIdx (ix2 r q) ((contrEquiv1 D2 128 rfl rfl).symm k) = ix2 k q := funext fun a => Fin.ext (by
    match a with
    | ⟨0, _⟩ => exact (D2_rhs0 _ _).trans hk
    | ⟨1, _⟩ => exact D2_rhs1 _ _)
  rw [el, er]

/-! ## The degree column broadcast along the row -/

theorem bcol_apply (x2 : Vec Ideal S2000x1 .f32) (r : Fin 2000) (k : Fin 128) :
    broadcastTo S2000x128 x2 broadcasts_S2000x1_S2000x128 (ix2 r k) = x2 (ix2 r (0 : Fin 1)) :=
  broadcastTo_apply x2 broadcasts_S2000x1_S2000x128 (ix2 r k) (ix2 r (0 : Fin 1)) (fun a => match a with
    | ⟨0, _⟩ => by show r.val = if (2000 : Nat) = 1 then 0 else r.val; rw [if_neg (by decide)]
    | ⟨1, _⟩ => by show (0 : Nat) = if (1 : Nat) = 1 then 0 else k.val; rw [if_pos rfl])

/-! ## One layer on a block -/

/-- The sum of the two products, before the last change of format, is the layer's entry. -/
theorem core_apply (x0 : FVec Ideal S2000x128 .bf16) (x1 : FVec Ideal S2000x128 .f32) (x2 : FVec Ideal S2000x1 .f32)
    (x3 x4 : FVec Ideal S128x128 .f32) (r : Fin 2000) (q : Fin 128) :
    addf (matmul D1 none x0 (truncf .bf16 x3 bitsLt_bf16_f32) (constant (F := Ideal) S2000x128 .f32 0x00000000#32))
        (matmul D1 none (truncf .bf16 (divf x1 (broadcastTo S2000x128 x2 broadcasts_S2000x1_S2000x128)) bitsLt_bf16_f32)
          (truncf .bf16 x4 bitsLt_bf16_f32) (constant (F := Ideal) S2000x128 .f32 0x00000000#32)) (ix2 r q)
      = Cert.Sage.layerAt x0 x1 x2 x3 x4 r q := by
  rw [addf_apply, matmul1_apply, matmul1_apply]
  unfold Cert.Sage.layerAt
  have e : ∀ k : Fin 128, (truncf .bf16 (divf x1 (broadcastTo S2000x128 x2 broadcasts_S2000x1_S2000x128)) bitsLt_bf16_f32 : FVec Ideal S2000x128 .bf16) (ix2 r k)
      = Ideal.div (x1 (ix2 r k)) (x2 (ix2 r (0 : Fin 1))) := fun k => by
    rw [truncf_apply, divf_apply, bcol_apply]
  simp only [e]
  rfl

/-- The first body's stored value at row `r`, column `q` of its block. -/
theorem pay0_apply (x0 : Vec Ideal S2000x128 .bf16) (x1 : Vec Ideal S2000x128 .f32) (x2 : Vec Ideal S2000x1 .f32)
    (x3 x4 : Vec Ideal S128x128 .f32) (r : Fin 2000) (q : Fin 128) :
    k0_pay1 x0 x1 x2 x3 x4 (ix2 r q) = Cert.Sage.layerAt x0 x1 x2 x3 x4 r q := by
  unfold k0_pay1
  simp only [shapeCast_self]
  exact (truncf_apply (s := S2000x128) (φ := .f32) (ψ := .bf16) _ bitsLt_bf16_f32 (ix2 r q)).trans (core_apply x0 x1 x2 x3 x4 r q)

/-- The second body's stored value: the classifier applied to the layer of the block. -/
theorem pay1_apply (x0 : Vec Ideal S2000x128 .bf16) (x1 : Vec Ideal S2000x128 .f32) (x2 : Vec Ideal S2000x1 .f32)
    (x3 x4 : Vec Ideal S128x128 .f32) (x5 : Vec Ideal S128x64 .f32) (r : Fin 2000) (q : Fin 64) :
    k1_pay1 x0 x1 x2 x3 x4 x5 (ix2 r q) = Cert.Sage.clsAt (Cert.Sage.layer x0 x1 x2 x3 x4) x5 r q := by
  unfold k1_pay1
  simp only [shapeCast_self]
  rw [matmul2_apply]
  unfold Cert.Sage.clsAt
  refine Finset.sum_congr rfl fun k _ => ?_
  refine congrArg₂ (· * ·) ?_ rfl
  exact (truncf_apply (s := S2000x128) (φ := .f32) (ψ := .bf16) _ bitsLt_bf16_f32 (ix2 r k)).trans (core_apply x0 x1 x2 x3 x4 r k)

end Cert.KernelIdeal.SageBody

end
-- ==== Proof.SageBlocks.lean ====
/- From blocks to arrays, for each of the two pallas_calls, at ANY contents `V` of the buffers on entry.

   The grid has 25 points; point `t` works on rows 2000·t … 2000·t + 1999 of the row-tiled arrays and on the
   whole weight matrices. What point `t` writes back is therefore rows 2000·t … of one whole-array function:
   the layer (first call), the classifier of the layer (second call), of the arrays as the call finds them.
   Row `i` lies in block `i / 2000`, so the blocks cover the output array. -/
import proofs.«139466_j30434138259919_2_alg».proof.Proof.Gen.KernelIdeal.Frame
import proofs.«139466_j30434138259919_2_alg».proof.Proof.SageSpec
import proofs.«139466_j30434138259919_2_alg».proof.Proof.SageBody
import Idealize.ShloMosaic.Lib.Pipeline.Value
import Idealize.ShloMosaic.Lib.ValueIdx

set_option maxRecDepth 16384

noncomputable section

namespace Cert.KernelIdeal.SageBlocks

open Cert.KernelIdeal Cert.KernelIdeal.Gen Cert.KernelIdeal.SageBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! # The first pallas_call -/

/-- The block indices over the grid: the row-tiled windows are at block `t`, the weights at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array of the first call: one layer of the arrays it finds. -/
abbrev G0 (c : Dev nD) : S50000x128.Idx → EReal :=
  Cert.Sage.layer (V c main_v24 : Vec Ideal S50000x128 .bf16) (V c main_v47 : Vec Ideal S50000x128 .f32)
    (V c main_v31 : Vec Ideal S50000x1 .f32) (V c main_v32 : Vec Ideal S128x128 .f32) (V c main_v33 : Vec Ideal S128x128 .f32)

theorem iblk0_0_apply (c : Dev nD) (t : Fin cfg0.N) (r : Fin 2000) (k : Fin 128) (hr : t.val * 2000 + r.val < 50000) :
    (iblk0 V c 0 t : Vec Ideal S2000x128 .bf16) (ix2 r k) = (V c main_v24 : Vec Ideal S50000x128 .bf16) (ix2 ⟨t.val * 2000 + r.val, hr⟩ k) := by
  obtain ⟨e0, e1, -⟩ := idx0 t
  show (V c main_v24 : Vec Ideal S50000x128 .bf16) (((cfg0.win 0).blk t).view.emb (ix2 r k)) = _
  refine congrArg (V c main_v24 : Vec Ideal S50000x128 .bf16) (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

theorem iblk0_1_apply (c : Dev nD) (t : Fin cfg0.N) (r : Fin 2000) (k : Fin 128) (hr : t.val * 2000 + r.val < 50000) :
    (iblk0 V c 1 t : Vec Ideal S2000x128 .f32) (ix2 r k) = (V c main_v47 : Vec Ideal S50000x128 .f32) (ix2 ⟨t.val * 2000 + r.val, hr⟩ k) := by
  obtain ⟨-, -, e0, e1, -⟩ := idx0 t
  show (V c main_v47 : Vec Ideal S50000x128 .f32) (((cfg0.win 1).blk t).view.emb (ix2 r k)) = _
  refine congrArg (V c main_v47 : Vec Ideal S50000x128 .f32) (funext fun a => Fin.ext ?_)
  match a with
  | ⟨0, _⟩ => show win0_1.index t (0 : Fin 2) * 2000 + 1 * r.val = t.val * 2000 + r.val; rw [e0]; omega
  | ⟨1, _⟩ => show win0_1.index t (1 : Fin 2) * 128 + 1 * k.val = k.val; rw [e1]; omega

theorem iblk0_2_apply (c : Dev nD) (t : Fin cfg0.N) (r : Fin 2000) (hr : t.val * 2000 + r.val < 50000) :
    (iblk0 V c 2 t : Vec Ideal S2000x1 .f32) (ix2 r (0 : Fin 1)) = (V c main_v31 : Vec Ideal S50000x1 .f32) (ix2 ⟨t.val * 2000 + r.val, hr⟩ (0 : Fin 1)) := by
  obtain ⟨-, -, -, -, e0, e1, -⟩ := idx0 t
  show (V c main_v31 : Vec Ideal S50000x1 .f32) (((cfg0.win 2).blk t).view.emb (ix2 r (0 : Fin 1))) = _
  refine congrArg (V c main_v31 : Vec Ideal S50000x1 .f32) (funext fun a => Fin.ext ?_)
  match a with
  | ⟨0, _⟩ => show win0_2.index t (0 : Fin 2) * 2000 + 1 * r.val = t.val * 2000 + r.val; rw [e0]; omega
  | ⟨1, _⟩ => show win0_2.index t (1 : Fin 2) * 1 + 1 * 0 = 0; rw [e1]

theorem iblk0_3_apply (c : Dev nD) (t : Fin cfg0.N) (k q : Fin 128) :
    (iblk0 V c 3 t : Vec Ideal S128x128 .f32) (ix2 k q) = (V c main_v32 : Vec Ideal S128x128 .f32) (ix2 k q) := by
  obtain ⟨-, -, -, -, -, -, e0, e1, -⟩ := idx0 t
  show (V c main_v32 : Vec Ideal S128x128 .f32) (((cfg0.win 3).blk t).view.emb (ix2 k q)) = _
  refine congrArg (V c main_v32 : Vec Ideal S128x128 .f32) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem iblk0_4_apply (c : Dev nD) (t : Fin cfg0.N) (k q : Fin 128) :
    (iblk0 V c 4 t : Vec Ideal S128x128 .f32) (ix2 k q) = (V c main_v33 : Vec Ideal S128x128 .f32) (ix2 k q) := by
  obtain ⟨-, -, -, -, -, -, -, -, e0, e1, -⟩ := idx0 t
  show (V c main_v33 : Vec Ideal S128x128 .f32) (((cfg0.win 4).blk t).view.emb (ix2 k q)) = _
  refine congrArg (V c main_v33 : Vec Ideal S128x128 .f32) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Where entry (r, q) of point `t`'s output block sits in the output array. -/
theorem emb0_5 (t : Fin cfg0.N) (r : Fin 2000) (q : Fin 128) (hr : t.val * 2000 + r.val < 50000) :
    ((cfg0.win 5).blk t).view.emb (ix2 r q) = (ix2 ⟨t.val * 2000 + r.val, hr⟩ q : S50000x128.Idx) := by
  obtain ⟨-, -, -, -, -, -, -, -, -, -, e0, e1⟩ := idx0 t
  refine funext fun a => Fin.ext ?_
  match a with
  | ⟨0, _⟩ => show win0_5.index t (0 : Fin 2) * 2000 + 1 * r.val = t.val * 2000 + r.val; rw [e0]; omega
  | ⟨1, _⟩ => show win0_5.index t (1 : Fin 2) * 128 + 1 * q.val = q.val; rw [e1]; omega

/-- What point `t` writes back is block `t` of the layer of the arrays as the call finds them. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz, View.ld_unit_zero (S := S128x128) hz]
  funext j
  obtain ⟨r, q, rfl⟩ : ∃ (r : Fin 2000) (q : Fin 128), j = ix2 r q := ⟨j 0, j 1, eq_ix2 j⟩
  have hN : cfg0.N = 25 := N_0
  have hr : t.val * 2000 + r.val < 50000 := by have := t.isLt; have := r.isLt; omega
  show k0_pay1 (iblk0 V c 0 t) (iblk0 V c 1 t) (iblk0 V c 2 t) (iblk0 V c 3 t) (iblk0 V c 4 t) (ix2 r q)
    = G0 V c (((cfg0.win 5).blk t).view.emb (ix2 r q))
  refine (pay0_apply (iblk0 V c 0 t) (iblk0 V c 1 t) (iblk0 V c 2 t) (iblk0 V c 3 t) (iblk0 V c 4 t) r q).trans ?_
  refine Eq.trans ?_ (congrArg (G0 V c) (emb0_5 t r q hr).symm)
  exact Cert.Sage.layerAt_rows r ⟨t.val * 2000 + r.val, hr⟩
    (fun k => iblk0_0_apply V c t r k hr) (fun k => iblk0_1_apply V c t r k hr) (iblk0_2_apply V c t r hr)
    (fun k q => iblk0_3_apply V c t k q) (fun k q => iblk0_4_apply V c t k q) q

/-- An index is in point `t`'s output block iff each coordinate is in the block's range. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v48).slice (win0_5.rect t)).set ↔ _
  rw [View.set_slice_whole, Rect.mem_set_unit]
  exact Iff.rfl

/-- Row `i` is in block `i / 2000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have hb : (i 0).val / 2000 < cfg0.N := by rw [hN]; omega
  obtain ⟨-, -, -, -, -, -, -, -, -, -, e0, e1⟩ := idx0 ⟨(i 0).val / 2000, hb⟩
  refine ⟨⟨(i 0).val / 2000, hb⟩, flush0_5 _, ?_⟩
  rw [mem_blk0]
  intro a
  match a with
  | ⟨0, _⟩ =>
    show win0_5.index ⟨(i 0).val / 2000, hb⟩ (0 : Fin 2) * 2000 ≤ (i 0).val ∧ (i 0).val < win0_5.index ⟨(i 0).val / 2000, hb⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hb⟩ (1 : Fin 2) * 128 ≤ (i 1).val ∧ (i 1).val < win0_5.index ⟨(i 0).val / 2000, hb⟩ (1 : Fin 2) * 128 + 128
    rw [e1]; omega

/-- The first call's output array after the call: the layer of the arrays it found. -/
theorem final0 (c : Dev nD) : (dat0 V c).arrAt 5 cfg0.N = G0 V c :=
  (dat0 V c).arrAt_eq_of_cover 5 (G0 V c) (fun t _ => flushed0_eq V c t) (fun i => cover0 i)

/-! # The second pallas_call -/

/-- The block indices over the grid: the row-tiled windows are at block `t`, the weights at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer the second call computes on the way, as an array. -/
abbrev H2 (c : Dev nD) : S50000x128.Idx → EReal :=
  Cert.Sage.layer (V c main_v48 : Vec Ideal S50000x128 .bf16) (V c main_v59 : Vec Ideal S50000x128 .f32)
    (V c main_v31 : Vec Ideal S50000x1 .f32) (V c main_v34 : Vec Ideal S128x128 .f32) (V c main_v35 : Vec Ideal S128x128 .f32)

/-- The output array of the second call: the classifier of that layer. -/
abbrev G1 (c : Dev nD) : S50000x64.Idx → EReal :=
  Cert.Sage.cls (H2 V c) (V c main_v36 : Vec Ideal S128x64 .f32)

theorem iblk1_0_apply (c : Dev nD) (t : Fin cfg1.N) (r : Fin 2000) (k : Fin 128) (hr : t.val * 2000 + r.val < 50000) :
    (iblk1 V c 0 t : Vec Ideal S2000x128 .bf16) (ix2 r k) = (V c main_v48 : Vec Ideal S50000x128 .bf16) (ix2 ⟨t.val * 2000 + r.val, hr⟩ k) := by
  obtain ⟨e0, e1, -⟩ := idx1 t
  show (V c main_v48 : Vec Ideal S50000x128 .bf16) (((cfg1.win 0).blk t).view.emb (ix2 r k)) = _
  refine congrArg (V c main_v48 : Vec Ideal S50000x128 .bf16) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * k.val = k.val; rw [e1]; omega

theorem iblk1_1_apply (c : Dev nD) (t : Fin cfg1.N) (r : Fin 2000) (k : Fin 128) (hr : t.val * 2000 + r.val < 50000) :
    (iblk1 V c 1 t : Vec Ideal S2000x128 .f32) (ix2 r k) = (V c main_v59 : Vec Ideal S50000x128 .f32) (ix2 ⟨t.val * 2000 + r.val, hr⟩ k) := by
  obtain ⟨-, -, e0, e1, -⟩ := idx1 t
  show (V c main_v59 : Vec Ideal S50000x128 .f32) (((cfg1.win 1).blk t).view.emb (ix2 r k)) = _
  refine congrArg (V c main_v59 : Vec Ideal S50000x128 .f32) (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * k.val = k.val; rw [e1]; omega

theorem iblk1_2_apply (c : Dev nD) (t : Fin cfg1.N) (r : Fin 2000) (hr : t.val * 2000 + r.val < 50000) :
    (iblk1 V c 2 t : Vec Ideal S2000x1 .f32) (ix2 r (0 : Fin 1)) = (V c main_v31 : Vec Ideal S50000x1 .f32) (ix2 ⟨t.val * 2000 + r.val, hr⟩ (0 : Fin 1)) := by
  obtain ⟨-, -, -, -, e0, e1, -⟩ := idx1 t
  show (V c main_v31 : Vec Ideal S50000x1 .f32) (((cfg1.win 2).blk t).view.emb (ix2 r (0 : Fin 1))) = _
  refine congrArg (V c main_v31 : Vec Ideal S50000x1 .f32) (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 1 + 1 * 0 = 0; rw [e1]

theorem iblk1_3_apply (c : Dev nD) (t : Fin cfg1.N) (k : Fin 128) (q : Fin 128) :
    (iblk1 V c 3 t : Vec Ideal S128x128 .f32) (ix2 k q) = (V c main_v34 : Vec Ideal S128x128 .f32) (ix2 k q) := by
  obtain ⟨-, -, -, -, -, -, e0, e1, -⟩ := idx1 t
  show (V c main_v34 : Vec Ideal S128x128 .f32) (((cfg1.win 3).blk t).view.emb (ix2 k q)) = _
  refine congrArg (V c main_v34 : Vec Ideal S128x128 .f32) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem iblk1_4_apply (c : Dev nD) (t : Fin cfg1.N) (k : Fin 128) (q : Fin 128) :
    (iblk1 V c 4 t : Vec Ideal S128x128 .f32) (ix2 k q) = (V c main_v35 : Vec Ideal S128x128 .f32) (ix2 k q) := by
  obtain ⟨-, -, -, -, -, -, -, -, e0, e1, -⟩ := idx1 t
  show (V c main_v35 : Vec Ideal S128x128 .f32) (((cfg1.win 4).blk t).view.emb (ix2 k q)) = _
  refine congrArg (V c main_v35 : Vec Ideal S128x128 .f32) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

theorem iblk1_5_apply (c : Dev nD) (t : Fin cfg1.N) (k : Fin 128) (q : Fin 64) :
    (iblk1 V c 5 t : Vec Ideal S128x64 .f32) (ix2 k q) = (V c main_v36 : Vec Ideal S128x64 .f32) (ix2 k q) := by
  obtain ⟨-, -, -, -, -, -, -, -, -, -, e0, e1, -⟩ := idx1 t
  show (V c main_v36 : Vec Ideal S128x64 .f32) (((cfg1.win 5).blk t).view.emb (ix2 k q)) = _
  refine congrArg (V c main_v36 : Vec Ideal S128x64 .f32) (funext fun a => Fin.ext ?_)
  match a with
  | ⟨0, _⟩ => show win1_5.index t (0 : Fin 2) * 128 + 1 * k.val = k.val; rw [e0]; omega
  | ⟨1, _⟩ => show win1_5.index t (1 : Fin 2) * 64 + 1 * q.val = q.val; rw [e1]; omega

/-- Where entry (r, q) of point `t`'s output block sits in the output array. -/
theorem emb1_6 (t : Fin cfg1.N) (r : Fin 2000) (q : Fin 64) (hr : t.val * 2000 + r.val < 50000) :
    ((cfg1.win 6).blk t).view.emb (ix2 r q) = (ix2 ⟨t.val * 2000 + r.val, hr⟩ q : S50000x64.Idx) := by
  obtain ⟨-, -, -, -, -, -, -, -, -, -, -, -, e0, e1⟩ := idx1 t
  refine funext fun a => Fin.ext ?_
  match a with
  | ⟨0, _⟩ => show win1_6.index t (0 : Fin 2) * 2000 + 1 * r.val = t.val * 2000 + r.val; rw [e0]; omega
  | ⟨1, _⟩ => show win1_6.index t (1 : Fin 2) * 64 + 1 * q.val = q.val; rw [e1]; omega

/-- What point `t` writes back is block `t` of the classifier of the layer of the arrays as the call finds them. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S128x64) hz]
  funext j
  obtain ⟨r, q, rfl⟩ : ∃ (r : Fin 2000) (q : Fin 64), j = ix2 r q := ⟨j 0, j 1, eq_ix2 j⟩
  have hN : cfg1.N = 25 := N_1
  have hr : t.val * 2000 + r.val < 50000 := by have := t.isLt; have := r.isLt; omega
  show k1_pay1 (iblk1 V c 0 t) (iblk1 V c 1 t) (iblk1 V c 2 t) (iblk1 V c 3 t) (iblk1 V c 4 t) (iblk1 V c 5 t) (ix2 r q)
    = G1 V c (((cfg1.win 6).blk t).view.emb (ix2 r q))
  refine (pay1_apply (iblk1 V c 0 t) (iblk1 V c 1 t) (iblk1 V c 2 t) (iblk1 V c 3 t) (iblk1 V c 4 t) (iblk1 V c 5 t) r q).trans ?_
  refine Eq.trans ?_ (congrArg (G1 V c) (emb1_6 t r q hr).symm)
  exact Cert.Sage.clsAt_rows r ⟨t.val * 2000 + r.val, hr⟩
    (fun k => Cert.Sage.layerAt_rows r ⟨t.val * 2000 + r.val, hr⟩
      (fun k => iblk1_0_apply V c t r k hr) (fun k => iblk1_1_apply V c t r k hr) (iblk1_2_apply V c t r hr)
      (fun k q => iblk1_3_apply V c t k q) (fun k q => iblk1_4_apply V c t k q) k)
    (fun k q => iblk1_5_apply V c t k q) q

/-- An index is in point `t`'s output block iff each coordinate is in the block's range. -/
theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v60).slice (win1_6.rect t)).set ↔ _
  rw [View.set_slice_whole, Rect.mem_set_unit]
  exact Iff.rfl

/-- Row `i` is in block `i / 2000`. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 25 := N_1
  have hb : (i 0).val / 2000 < cfg1.N := by rw [hN]; omega
  obtain ⟨-, -, -, -, -, -, -, -, -, -, -, -, e0, e1⟩ := idx1 ⟨(i 0).val / 2000, hb⟩
  refine ⟨⟨(i 0).val / 2000, hb⟩, flush1_6 _, ?_⟩
  rw [mem_blk1]
  intro a
  match a with
  | ⟨0, _⟩ =>
    show win1_6.index ⟨(i 0).val / 2000, hb⟩ (0 : Fin 2) * 2000 ≤ (i 0).val ∧ (i 0).val < win1_6.index ⟨(i 0).val / 2000, hb⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hb⟩ (1 : Fin 2) * 64 ≤ (i 1).val ∧ (i 1).val < win1_6.index ⟨(i 0).val / 2000, hb⟩ (1 : Fin 2) * 64 + 64
    rw [e1]; omega

/-- The second call's output array after the call: the classifier of the layer of the arrays it found. -/
theorem final1 (c : Dev nD) : (dat1 V c).arrAt 6 cfg1.N = G1 V c :=
  (dat1 V c).arrAt_eq_of_cover 6 (G1 V c) (fun t _ => flushed1_eq V c t) (fun i => cover1 i)

end Cert.KernelIdeal.SageBlocks

end
-- ==== Proof.SageRef.lean ====
/- The reference, read as the same two layers and classifier.

   Each `dot_general` of the reference is a sum over the 128 contracted positions of the left operand at
   (r, k) times the right operand at (k, q); the mean aggregation divides entry (r, k) of the summed
   neighbours by the degree column at (r, 0), which the reference reaches through two broadcasts. So
   `h·Wselfᵀ + (agg/deg)·Wneighᵀ` is one layer of its operands, twice, and the last product is the
   classifier. The gathers and scatter-adds stay as they are. -/
import proofs.«139466_j30434138259919_2_alg».proof.Proof.Gen.ReferenceIdeal.Read
import proofs.«139466_j30434138259919_2_alg».proof.Proof.SageSpec
import Idealize.ShloMosaic.Lib.ValueIdx
import Idealize.ShloMosaic.PureOps.Ideal.Laws

noncomputable section

namespace Cert.ReferenceIdeal.SageRef

open Cert.ReferenceIdeal Cert.ReferenceIdeal.Read Idealize.ShloMosaic Idealize.ShloMosaic.ValueIdx

/-! ## The operand positions of the five products, and of the degree's broadcasts -/

theorem lidx44 (r : Fin 50000) (q : Fin 128) (k : Fin 128) : lidx_main_v44 (ix2 r q) k = ix2 r k :=
  funext fun a => Fin.ext (by match a with | ⟨0, _⟩ => rfl | ⟨1, _⟩ => rfl)
theorem ridx44 (r : Fin 50000) (q : Fin 128) (k : Fin 128) : ridx_main_v44 (ix2 r q) k = ix2 k q :=
  funext fun a => Fin.ext (by match a with | ⟨0, _⟩ => rfl | ⟨1, _⟩ => rfl)
theorem lidx46 (r : Fin 50000) (q : Fin 128) (k : Fin 128) : lidx_main_v46 (ix2 r q) k = ix2 r k :=
  funext fun a => Fin.ext (by match a with | ⟨0, _⟩ => rfl | ⟨1, _⟩ => rfl)
theorem ridx46 (r : Fin 50000) (q : Fin 128) (k : Fin 128) : ridx_main_v46 (ix2 r q) k = ix2 k q :=
  funext fun a => Fin.ext (by match a with | ⟨0, _⟩ => rfl | ⟨1, _⟩ => rfl)
theorem lidx68 (r : Fin 50000) (q : Fin 128) (k : Fin 128) : lidx_main_v68 (ix2 r q) k = ix2 r k :=
  funext fun a => Fin.ext (by match a with | ⟨0, _⟩ => rfl | ⟨1, _⟩ => rfl)
theorem ridx68 (r : Fin 50000) (q : Fin 128) (k : Fin 128) : ridx_main_v68 (ix2 r q) k = ix2 k q :=
  funext fun a => Fin.ext (by match a with | ⟨0, _⟩ => rfl | ⟨1, _⟩ => rfl)
theorem lidx70 (r : Fin 50000) (q : Fin 128) (k : Fin 128) : lidx_main_v70 (ix2 r q) k = ix2 r k :=
  funext fun a => Fin.ext (by match a with | ⟨0, _⟩ => rfl | ⟨1, _⟩ => rfl)
theorem ridx70 (r : Fin 50000) (q : Fin 128) (k : Fin 128) : ridx_main_v70 (ix2 r q) k = ix2 k q :=
  funext fun a => Fin.ext (by match a with | ⟨0, _⟩ => rfl | ⟨1, _⟩ => rfl)
theorem lidx73 (r : Fin 50000) (q : Fin 64) (k : Fin 128) : lidx_main_v73 (ix2 r q) k = ix2 r k :=
  funext fun a => Fin.ext (by match a with | ⟨0, _⟩ => rfl | ⟨1, _⟩ => rfl)
theorem ridx73 (r : Fin 50000) (q : Fin 64) (k : Fin 128) : ridx_main_v73 (ix2 r q) k = ix2 k q :=
  funext fun a => Fin.ext (by match a with | ⟨0, _⟩ => rfl | ⟨1, _⟩ => rfl)

theorem idx41 (r : Fin 50000) (k : Fin 128) : idx_main_v41 (ix2 r k) = ix2 r (0 : Fin 1) :=
  funext fun a => Fin.ext (by match a with | ⟨0, _⟩ => rfl | ⟨1, _⟩ => rfl)
theorem idx65 (r : Fin 50000) (k : Fin 128) : idx_main_v65 (ix2 r k) = ix2 r (0 : Fin 1) :=
  funext fun a => Fin.ext (by match a with | ⟨0, _⟩ => rfl | ⟨1, _⟩ => rfl)

variable (x0 : (⟨S50000x2, .i32⟩ : BufTy).Contents (Elt Ideal)) (x1 : (⟨S2x800000, .i32⟩ : BufTy).Contents (Elt Ideal))
  (x2 x3 : (⟨S50001x128, .f32⟩ : BufTy).Contents (Elt Ideal)) (x4 x5 x6 x7 : (⟨S128x128, .f32⟩ : BufTy).Contents (Elt Ideal))
  (x8 : (⟨S64x128, .f32⟩ : BufTy).Contents (Elt Ideal))

/-- The first layer of the reference. -/
theorem v47_eq : val_main_v47 (F := Ideal) x0 x1 x2 x3 x4 x5
    = Cert.Sage.layer (val_main_v19 (F := Ideal) x0 x2 x3) (val_main_v37 (F := Ideal) x0 x1 x2 x3) (val_main_v40 (F := Ideal) x1)
        (val_main_v43 (F := Ideal) x4) (val_main_v45 (F := Ideal) x5) := by
  funext i
  obtain ⟨r, q, rfl⟩ : ∃ (r : Fin 50000) (q : Fin 128), i = ix2 r q := ⟨i 0, i 1, eq_ix2 i⟩
  rw [val_main_v47_apply, val_main_v44_apply, val_main_v46_apply, Ideal.addf_def]
  show _ = Cert.Sage.layerAt _ _ _ _ _ r q
  unfold Cert.Sage.layerAt
  refine congrArg₂ (· + ·) (Finset.sum_congr rfl fun k _ => ?_) (Finset.sum_congr rfl fun k _ => ?_)
  · rw [lidx44, ridx44]
  · rw [lidx46, ridx46, val_main_v42_apply, val_main_v41_apply, idx41, Ideal.hostDivf_def]

/-- The second layer of the reference. -/
theorem v71_eq : val_main_v71 (F := Ideal) x0 x1 x2 x3 x4 x5 x6 x7
    = Cert.Sage.layer (val_main_v47 (F := Ideal) x0 x1 x2 x3 x4 x5) (val_main_v61 (F := Ideal) x0 x1 x2 x3 x4 x5) (val_main_v64 (F := Ideal) x1)
        (val_main_v67 (F := Ideal) x6) (val_main_v69 (F := Ideal) x7) := by
  funext i
  obtain ⟨r, q, rfl⟩ : ∃ (r : Fin 50000) (q : Fin 128), i = ix2 r q := ⟨i 0, i 1, eq_ix2 i⟩
  rw [val_main_v71_apply, val_main_v68_apply, val_main_v70_apply, Ideal.addf_def]
  show _ = Cert.Sage.layerAt _ _ _ _ _ r q
  unfold Cert.Sage.layerAt
  refine congrArg₂ (· + ·) (Finset.sum_congr rfl fun k _ => ?_) (Finset.sum_congr rfl fun k _ => ?_)
  · rw [lidx68, ridx68]
  · rw [lidx70, ridx70, val_main_v66_apply, val_main_v65_apply, idx65, Ideal.hostDivf_def]

/-- The classifier of the reference. -/
theorem v73_eq : val_main_v73 (F := Ideal) x0 x1 x2 x3 x4 x5 x6 x7 x8
    = Cert.Sage.cls (val_main_v71 (F := Ideal) x0 x1 x2 x3 x4 x5 x6 x7) (val_main_v72 (F := Ideal) x8) := by
  funext i
  obtain ⟨r, q, rfl⟩ : ∃ (r : Fin 50000) (q : Fin 64), i = ix2 r q := ⟨i 0, i 1, eq_ix2 i⟩
  rw [val_main_v73_apply]
  show _ = Cert.Sage.clsAt _ _ r q
  unfold Cert.Sage.clsAt
  refine Finset.sum_congr rfl fun k _ => ?_
  rw [lidx73, ridx73]

/-- The reference's result: the classifier of the second layer of the first layer. -/
theorem result_eq : val_main_v73 (F := Ideal) x0 x1 x2 x3 x4 x5 x6 x7 x8
    = Cert.Sage.cls
        (Cert.Sage.layer (val_main_v47 (F := Ideal) x0 x1 x2 x3 x4 x5) (val_main_v61 (F := Ideal) x0 x1 x2 x3 x4 x5) (val_main_v64 (F := Ideal) x1)
          (val_main_v67 (F := Ideal) x6) (val_main_v69 (F := Ideal) x7))
        (val_main_v72 (F := Ideal) x8) := by
  rw [v73_eq, v71_eq]

end Cert.ReferenceIdeal.SageRef

end
-- ==== Proof.SageHost.lean ====
/- The host operations of the idealized kernel's @main, read at the buffers the two pallas_calls stage.

   Before the first call the host gathers the two embeddings, adds them and clamps at zero (the node features),
   counts each node's incoming edges by a scatter-add of ones and clamps the count at one (the degree column),
   transposes the five weight matrices, and scatter-adds the gathered source features onto their targets (the
   aggregate). Between the calls it gathers and scatter-adds the first call's output in the same way. These are
   the reference's own operations on the same arguments; the changes of float format between them are the
   identity on extended reals. So every array a call stages is the reference's value of the same name, and the
   first call's output is the reference's first layer. -/
import proofs.«139466_j30434138259919_2_alg».proof.Proof.Gen.KernelIdeal.Frame
import proofs.«139466_j30434138259919_2_alg».proof.Proof.Gen.ReferenceIdeal.Read
import proofs.«139466_j30434138259919_2_alg».proof.Proof.SageSpec
import proofs.«139466_j30434138259919_2_alg».proof.Proof.SageBlocks
import proofs.«139466_j30434138259919_2_alg».proof.Proof.SageRef
import Idealize.ShloMosaic.Lib.StableHlo.Run

set_option maxRecDepth 16384

noncomputable section

namespace Cert.KernelIdeal.SageHost

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first call -/

set_option maxHeartbeats 4000000 in
/-- The node features: the clamped sum of the two gathered embeddings. -/
theorem feats_eq : (W3 m ρ c (Proc.devRef .tc main_v24) : Vec Ideal S50000x128 .bf16) = Cert.ReferenceIdeal.Read.val_main_v19 (F := Ideal) (m ((c.tc : Thread nD τ).loc main_arg0)) (m ((c.tc : Thread nD τ).loc main_arg2)) (m ((c.tc : Thread nD τ).loc main_arg3)) := by
  show StableHlo.after hostOps0_2 (StableHlo.after hostOps0_1 (StableHlo.after hostOps0 (W0 m ρ c))) (Proc.devRef .tc main_v24) = _
  after_results_simp
  rfl

set_option maxHeartbeats 4000000 in
/-- The first aggregate: the source features scatter-added onto their targets. -/
theorem agg0_eq : (W3 m ρ c (Proc.devRef .tc main_v47) : Vec Ideal S50000x128 .f32) = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps0_2 (StableHlo.after hostOps0_1 (StableHlo.after hostOps0 (W0 m ρ c))) (Proc.devRef .tc main_v47) = _
  after_results_simp
  rfl

set_option maxHeartbeats 4000000 in
/-- The degree column, as the reference's first layer computes it. -/
theorem deg_eq : (W3 m ρ c (Proc.devRef .tc main_v31) : Vec Ideal S50000x1 .f32) = Cert.ReferenceIdeal.Read.val_main_v40 (F := Ideal) (m ((c.tc : Thread nD τ).loc main_arg1)) := by
  show StableHlo.after hostOps0_2 (StableHlo.after hostOps0_1 (StableHlo.after hostOps0 (W0 m ρ c))) (Proc.devRef .tc main_v31) = _
  after_results_simp
  rfl

set_option maxHeartbeats 4000000 in
/-- The same column, as the reference's second layer computes it again. -/
theorem deg_eq' : (W3 m ρ c (Proc.devRef .tc main_v31) : Vec Ideal S50000x1 .f32) = Cert.ReferenceIdeal.Read.val_main_v64 (F := Ideal) (m ((c.tc : Thread nD τ).loc main_arg1)) := by
  show StableHlo.after hostOps0_2 (StableHlo.after hostOps0_1 (StableHlo.after hostOps0 (W0 m ρ c))) (Proc.devRef .tc main_v31) = _
  after_results_simp
  rfl

set_option maxHeartbeats 4000000 in
/-- The first layer's self weights, transposed. -/
theorem ws0_eq : (W3 m ρ c (Proc.devRef .tc main_v32) : Vec Ideal S128x128 .f32) = Cert.ReferenceIdeal.Read.val_main_v43 (F := Ideal) (m ((c.tc : Thread nD τ).loc main_arg4)) := by
  show StableHlo.after hostOps0_2 (StableHlo.after hostOps0_1 (StableHlo.after hostOps0 (W0 m ρ c))) (Proc.devRef .tc main_v32) = _
  after_results_simp
  rfl

set_option maxHeartbeats 4000000 in
/-- The first layer's neighbour weights, transposed. -/
theorem wn0_eq : (W3 m ρ c (Proc.devRef .tc main_v33) : Vec Ideal S128x128 .f32) = Cert.ReferenceIdeal.Read.val_main_v45 (F := Ideal) (m ((c.tc : Thread nD τ).loc main_arg5)) := by
  show StableHlo.after hostOps0_2 (StableHlo.after hostOps0_1 (StableHlo.after hostOps0 (W0 m ρ c))) (Proc.devRef .tc main_v33) = _
  after_results_simp
  rfl

set_option maxHeartbeats 4000000 in
/-- The second layer's self weights, transposed. -/
theorem ws1_eq : (W3 m ρ c (Proc.devRef .tc main_v34) : Vec Ideal S128x128 .f32) = Cert.ReferenceIdeal.Read.val_main_v67 (F := Ideal) (m ((c.tc : Thread nD τ).loc main_arg6)) := by
  show StableHlo.after hostOps0_2 (StableHlo.after hostOps0_1 (StableHlo.after hostOps0 (W0 m ρ c))) (Proc.devRef .tc main_v34) = _
  after_results_simp
  rfl

set_option maxHeartbeats 4000000 in
/-- The second layer's neighbour weights, transposed. -/
theorem wn1_eq : (W3 m ρ c (Proc.devRef .tc main_v35) : Vec Ideal S128x128 .f32) = Cert.ReferenceIdeal.Read.val_main_v69 (F := Ideal) (m ((c.tc : Thread nD τ).loc main_arg7)) := by
  show StableHlo.after hostOps0_2 (StableHlo.after hostOps0_1 (StableHlo.after hostOps0 (W0 m ρ c))) (Proc.devRef .tc main_v35) = _
  after_results_simp
  rfl

set_option maxHeartbeats 4000000 in
/-- The classifier weights, transposed. -/
theorem wc_eq : (W3 m ρ c (Proc.devRef .tc main_v36) : Vec Ideal S128x64 .f32) = Cert.ReferenceIdeal.Read.val_main_v72 (F := Ideal) (m ((c.tc : Thread nD τ).loc main_arg8)) := by
  show StableHlo.after hostOps0_2 (StableHlo.after hostOps0_1 (StableHlo.after hostOps0 (W0 m ρ c))) (Proc.devRef .tc main_v36) = _
  after_results_simp
  rfl

set_option maxHeartbeats 4000000 in
/-- The edges' sources. -/
theorem src_eq : (W3 m ρ c (Proc.devRef .tc main_v1) : IVec S800000 32) = Cert.ReferenceIdeal.Read.val_main_v21 (F := Ideal) (m ((c.tc : Thread nD τ).loc main_arg1)) := by
  show StableHlo.after hostOps0_2 (StableHlo.after hostOps0_1 (StableHlo.after hostOps0 (W0 m ρ c))) (Proc.devRef .tc main_v1) = _
  after_results_simp
  rfl

set_option maxHeartbeats 4000000 in
/-- The edges' targets. -/
theorem dst_eq : (W3 m ρ c (Proc.devRef .tc main_v3) : IVec S800000 32) = Cert.ReferenceIdeal.Read.val_main_v23 (F := Ideal) (m ((c.tc : Thread nD τ).loc main_arg1)) := by
  show StableHlo.after hostOps0_2 (StableHlo.after hostOps0_1 (StableHlo.after hostOps0 (W0 m ρ c))) (Proc.devRef .tc main_v3) = _
  after_results_simp
  rfl

/-! ## After the first call -/

/-- The first call's output array is the reference's first layer. -/
theorem w4_h1 : W4 m ρ c (Proc.devRef .tc main_v48) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W4_arr m ρ c 5).trans (Cert.KernelIdeal.SageBlocks.final0 (V3 m ρ) c)).trans ?_
  show Cert.Sage.layer (W3 m ρ c (Proc.devRef .tc main_v24) : Vec Ideal S50000x128 .bf16) (W3 m ρ c (Proc.devRef .tc main_v47) : Vec Ideal S50000x128 .f32)
    (W3 m ρ c (Proc.devRef .tc main_v31) : Vec Ideal S50000x1 .f32) (W3 m ρ c (Proc.devRef .tc main_v32) : Vec Ideal S128x128 .f32)
    (W3 m ρ c (Proc.devRef .tc main_v33) : Vec Ideal S128x128 .f32) = _
  rw [feats_eq, agg0_eq, deg_eq, ws0_eq, wn0_eq]
  exact (Cert.ReferenceIdeal.SageRef.v47_eq _ _ _ _ _ _).symm

/-- The first call leaves the degree column as it found it: the call only reads it. -/
theorem w4_deg : W4 m ρ c (Proc.devRef .tc main_v31) = W3 m ρ c (Proc.devRef .tc main_v31) :=
  (W4_arr m ρ c 2).trans (((dat0 (V3 m ρ) c).arrAt_in 2 rfl _).trans (A_eq0 (V3 m ρ) c 2))

/-! ## What the second call stages -/

/-- Its node features: the first call's output. -/
theorem h1_eq : (V5 m ρ c main_v48 : Vec Ideal S50000x128 .bf16) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W4 m ρ c) (Proc.devRef .tc main_v48) = _
  after_results_simp
  exact w4_h1 m ρ c

set_option maxHeartbeats 4000000 in
/-- Its aggregate: the first layer's rows scatter-added along the edges. -/
theorem agg1_eq : (V5 m ρ c main_v59 : Vec Ideal S50000x128 .f32) = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W4 m ρ c) (Proc.devRef .tc main_v59) = _
  after_results_simp
  rw [W4_of_ne m ρ c main_v1 (by decide), W4_of_ne m ρ c main_v3 (by decide), w4_h1, src_eq, dst_eq]
  rfl

/-- Its degree column. -/
theorem deg1_eq : (V5 m ρ c main_v31 : Vec Ideal S50000x1 .f32) = Cert.ReferenceIdeal.Read.val_main_v64 (F := Ideal) (m ((c.tc : Thread nD τ).loc main_arg1)) := by
  show StableHlo.after hostOps1 (W4 m ρ c) (Proc.devRef .tc main_v31) = _
  after_results_simp
  rw [w4_deg]
  exact deg_eq' m ρ c

/-- Its self weights. -/
theorem ws1_eq5 : (V5 m ρ c main_v34 : Vec Ideal S128x128 .f32) = Cert.ReferenceIdeal.Read.val_main_v67 (F := Ideal) (m ((c.tc : Thread nD τ).loc main_arg6)) := by
  show StableHlo.after hostOps1 (W4 m ρ c) (Proc.devRef .tc main_v34) = _
  after_results_simp
  rw [W4_of_ne m ρ c main_v34 (by decide)]
  exact ws1_eq m ρ c

/-- Its neighbour weights. -/
theorem wn1_eq5 : (V5 m ρ c main_v35 : Vec Ideal S128x128 .f32) = Cert.ReferenceIdeal.Read.val_main_v69 (F := Ideal) (m ((c.tc : Thread nD τ).loc main_arg7)) := by
  show StableHlo.after hostOps1 (W4 m ρ c) (Proc.devRef .tc main_v35) = _
  after_results_simp
  rw [W4_of_ne m ρ c main_v35 (by decide)]
  exact wn1_eq m ρ c

/-- Its classifier weights. -/
theorem wc_eq5 : (V5 m ρ c main_v36 : Vec Ideal S128x64 .f32) = Cert.ReferenceIdeal.Read.val_main_v72 (F := Ideal) (m ((c.tc : Thread nD τ).loc main_arg8)) := by
  show StableHlo.after hostOps1 (W4 m ρ c) (Proc.devRef .tc main_v36) = _
  after_results_simp
  rw [W4_of_ne m ρ c main_v36 (by decide)]
  exact wc_eq m ρ c

end Cert.KernelIdeal.SageHost

end
-- ==== Proof.SageValue.lean ====
/- The idealized kernel's result is the reference's result, as one function of the arguments.

   The second call's output array is the classifier of the layer of the arrays it stages; those are the reference's
   first layer, its second aggregate, its degree column and its transposed weights; and the reference's result is
   the classifier of its second layer. -/
import proofs.«139466_j30434138259919_2_alg».proof.Proof.SageRun
import proofs.«139466_j30434138259919_2_alg».proof.Proof.SageBlocks
import proofs.«139466_j30434138259919_2_alg».proof.Proof.SageHost
import proofs.«139466_j30434138259919_2_alg».proof.Proof.SageRef

set_option maxRecDepth 16384

noncomputable section

namespace Cert.KernelIdeal.SageValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer after the run holds the reference's result on the same arguments. -/
theorem result_value (c : Dev nD) :
    W6 m ρ c (Proc.devRef .tc main_v60) = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine ((Cert.KernelIdeal.SageRun.result_eq m ρ c).trans (Cert.KernelIdeal.SageBlocks.final1 (V5 m ρ) c)).trans ?_
  show Cert.Sage.cls (Cert.Sage.layer (V5 m ρ c main_v48 : Vec Ideal S50000x128 .bf16) (V5 m ρ c main_v59 : Vec Ideal S50000x128 .f32)
      (V5 m ρ c main_v31 : Vec Ideal S50000x1 .f32) (V5 m ρ c main_v34 : Vec Ideal S128x128 .f32) (V5 m ρ c main_v35 : Vec Ideal S128x128 .f32))
    (V5 m ρ c main_v36 : Vec Ideal S128x64 .f32) = _
  rw [Cert.KernelIdeal.SageHost.h1_eq, Cert.KernelIdeal.SageHost.agg1_eq, Cert.KernelIdeal.SageHost.deg1_eq,
    Cert.KernelIdeal.SageHost.ws1_eq5, Cert.KernelIdeal.SageHost.wn1_eq5, Cert.KernelIdeal.SageHost.wc_eq5]
  exact (Cert.ReferenceIdeal.SageRef.result_eq _ _ _ _ _ _ _ _ _).symm

/-- The idealized kernel's run: it terminates without a fault, its result is the reference's function of the
    arguments, and the arguments are unchanged. -/
theorem run : θ_run defs (onTc (τ := τ) (main (F := Ideal))) ⟨m, fun _ => 0, ρ⟩ (fun r => ∀ c : Dev nD,
      r.2.mem ((c.tc : Thread nD τ).loc main_v60) = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_value m ρ c), (h c).2⟩) (Cert.KernelIdeal.SageRun.run (F := Ideal) m ρ)

end Cert.KernelIdeal.SageValue

end
-- ==== Proof.lean ====
/- Two layers of mean-aggregating GraphSAGE and a linear classifier, as a Pallas kernel pair against a plain reference.

   Both programs gather and add two embeddings per node and clamp at zero, count incoming edges (clamped at one),
   and per layer scatter-add the gathered source rows onto their targets; a layer is
     h·Wselfᵀ + (agg / deg)·Wneighᵀ
   and the result is the second layer times Wclsᵀ. The kernel computes each layer block by block, 2000 rows at a
   time, with the products taken through bf16 operands; on extended reals a change of float format is the identity,
   a matrix product into a zero accumulator is the plain sum over the contracted axis, and a row of a layer depends
   on the same row of its operands only, so the blocks are the rows of one whole-array layer. The reference computes
   the same sums with whole-array products. The sums agree term by term: no law of arithmetic beyond that is used,
   and finiteness of the inputs is not needed.

   The frames of the two kernel programs are the generated ones; the reference's frame is its generated run with
   the result dropped; the idealization rewrote nothing, so `preserves` is trivial. -/
import proofs.«139466_j30434138259919_2_alg».proof.Defs
import proofs.«139466_j30434138259919_2_alg».proof.Proof.Gen.Kernel
import proofs.«139466_j30434138259919_2_alg».proof.Proof.Gen.Kernel.Skeleton
import proofs.«139466_j30434138259919_2_alg».proof.Proof.Gen.Kernel.Launch
import proofs.«139466_j30434138259919_2_alg».proof.Proof.Gen.Kernel.Points
import proofs.«139466_j30434138259919_2_alg».proof.Proof.Gen.Kernel.Frame
import proofs.«139466_j30434138259919_2_alg».proof.Proof.Gen.KernelIdeal
import proofs.«139466_j30434138259919_2_alg».proof.Proof.Gen.KernelIdeal.Skeleton
import proofs.«139466_j30434138259919_2_alg».proof.Proof.Gen.KernelIdeal.Launch
import proofs.«139466_j30434138259919_2_alg».proof.Proof.Gen.KernelIdeal.Points
import proofs.«139466_j30434138259919_2_alg».proof.Proof.Gen.KernelIdeal.Frame
import proofs.«139466_j30434138259919_2_alg».proof.Proof.Gen.ReferenceIdeal
import proofs.«139466_j30434138259919_2_alg».proof.Proof.Gen.Pre_finite_inputs
import proofs.«139466_j30434138259919_2_alg».proof.Proof.Gen.ReferenceIdeal.Read
import proofs.«139466_j30434138259919_2_alg».proof.Proof.SageValue
import Idealize.ShloMosaic.Adequacy
import Idealize.ShloMosaic.Init

noncomputable section

namespace Cert.Proof

open Idealize.ShloMosaic Idealize.SL.Sem Cert.Kernel

/-- Both idealized programs run to the same result: the reference's composed term of the arguments. -/
theorem algebraic : Cert.algebraic_KernelIdeal_ReferenceIdeal := fun m ρ m' ρ' _ hagree =>
  ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
   Cert.KernelIdeal.SageValue.run m ρ,
   (θ_run Cert.ReferenceIdeal.defs _ _).mono (fun _ h c => ⟨(h c).1.trans (by
      obtain ⟨e0, e1, e2, e3, e4, e5, e6, e7, e8⟩ := hagree c
      rw [Cert.ReferenceIdeal.Read.val_main_v73_eq, e0, e1, e2, e3, e4, e5, e6, e7, e8]), (h c).2⟩)
    (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
